-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_cst : Ref sig .tc := ⟨.hbm, 66, rfl⟩
abbrev main_call2_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.GcnSpec.lean ====
/-
  A two-layer graph convolution over a graph given as an edge list, as whole-array functions.

  The graph has 100000 nodes and 1600000 directed edges, stored as a 2 × 1600000 table of node numbers: row 0 the
  sources, row 1 the targets. Every node also gets a loop to itself, so the list of edges has 1700000 entries: the
  given ones followed by (0, 0), (1, 1), …

  * `srcOf`, `dstOf`: the two endpoint lists with the loops appended.
  * `wrapIdx`: a node number read as a Python index, a negative one counted from the end (+ 100000).
  * `degOf`: the in-degree of every node, a sum of ones over the edges that end there.
  * `dinvOf`: deg^(-1/2) where the degree is positive, else 0.
  * `normOf`: the weight of an edge, dinv at its source times dinv at its target.
  * `aggregate`: the rows of a node table gathered along the edges by source, scaled by the edge's weight and
    summed into the edge's target — the normalised adjacency matrix applied to the table —, plus one bias row.
  * `hiddenOf`: the first layer after its linear map: aggregate, add the bias, maximum with zero.
  * `outputOf`: the second layer after its linear map: aggregate and add the bias.
  * `gcn`: the network, out = outputOf (hiddenOf (x · W1) · W2), each product the plain matrix product.

  Nothing here depends on how the two matrix products are carried out; they enter as arguments of the layers.
-/
import proofs.«153329_j33595234189756_1_alg».proof.Proof.Gen.KernelIdeal
import Idealize.ShloMosaic.PureOps.Ideal

noncomputable section

namespace Cert.Gcn

open Cert.KernelIdeal Cert.KernelIdeal.Gen Idealize.ShloMosaic

variable {F : FTy → Type} [FloatOps F]

/-- The edge table's row of sources followed by the loops' sources 0, 1, …, 99999. -/
def srcOf (ei : (⟨S2x1600000, .i32⟩ : BufTy).Contents (Elt F)) : (⟨S1700000, .i32⟩ : BufTy).Contents (Elt F) :=
  concatenate S1700000 0
    [⟨S1600000, shapeCast _ (extractStridedSlice S1x1600000 ![0, 0] ei slices_S2x1600000_S1x1600000_0_0) shapeCasts_S1x1600000_S1600000⟩,
     ⟨S100000, iotaInDim S100000 32 0⟩] concatenates_S1600000_S100000_S1700000_d0

/-- The edge table's row of targets followed by the loops' targets 0, 1, …, 99999. -/
def dstOf (ei : (⟨S2x1600000, .i32⟩ : BufTy).Contents (Elt F)) : (⟨S1700000, .i32⟩ : BufTy).Contents (Elt F) :=
  concatenate S1700000 0
    [⟨S1600000, shapeCast _ (extractStridedSlice S1x1600000 ![1, 0] ei slices_S2x1600000_S1x1600000_1_0) shapeCasts_S1x1600000_S1600000⟩,
     ⟨S100000, iotaInDim S100000 32 0⟩] concatenates_S1600000_S100000_S1700000_d0

/-- A list of node numbers as a column of indices, a negative number counted from the end. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The in-degree of every node: a one summed into the target of every edge. -/
def degOf (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 dst)
    (broadcastInDim S1700000 ![] bcast_S_S1700000 (constant (F := F) S_ .f32 0x3F800000#32))

/-- deg^(-1/2) where the degree is positive, else 0. -/
def dinvOf (dst : (⟨S1700000, .i32⟩ : BufTy).Contents (Elt F)) : (⟨S100000, .f32⟩ : BufTy).Contents (Elt F) :=
  select (cmpf .ogt (degOf dst) (broadcastInDim S100000 ![] bcast_S_S100000 (constant (F := F) S_ .f32 0x00000000#32)))
    (Host.rsqrt (degOf dst))
    (broadcastInDim S100000 ![] bcast_S_S100000 (constant (F := F) S_ .f32 0x00000000#32))

/-- The weight of every edge: dinv at its source times dinv at its target. -/
def normOf (src dst : (⟨S1700000, .i32⟩ : BufTy).Contents (Elt F)) : (⟨S1700000, .f32⟩ : BufTy).Contents (Elt F) :=
  mulf (Host.gather gather_S100000_S1700000x1_S1700000_n_0_n_n_0_1_1 (dinvOf dst) (wrapIdx src))
    (Host.gather gather_S100000_S1700000x1_S1700000_n_0_n_n_0_1_1 (dinvOf dst) (wrapIdx dst))

/-- The first layer after its linear map `M` = x · W1: along every edge the source's row of `M` times the edge's
    weight, summed into the target's row; plus the bias row; maximum with zero. -/
def hiddenOf (src dst : (⟨S1700000, .i32⟩ : BufTy).Contents (Elt F)) (nrm : (⟨S1700000, .f32⟩ : BufTy).Contents (Elt F))
    (b : (⟨S128, .f32⟩ : BufTy).Contents (Elt F)) (M : (⟨S100000x128, .f32⟩ : BufTy).Contents (Elt F)) :
    (⟨S100000x128, .f32⟩ : BufTy).Contents (Elt F) :=
  maximumf
    (addf
      (Host.scatterAdd scatter_S100000x128_S1700000x1_S1700000x128_1_0_0_1
        (broadcastInDim S100000x128 ![] bcast_S_S100000x128 (constant (F := F) S_ .f32 0x00000000#32))
        (broadcastInDim S1700000x1 ![0] bcast_S1700000_S1700000x1_0 dst)
        (mulf (Host.gather gather_S100000x128_S1700000x1_S1700000x128_1_0_n_n_0_1_1128 M (wrapIdx src))
          (broadcastInDim S1700000x128 ![0, 1] bcast_S1700000x1_S1700000x128_0_1
            (broadcastInDim S1700000x1 ![0] bcast_S1700000_S1700000x1_0 nrm))))
      (broadcastInDim S100000x128 ![0, 1] bcast_S1x128_S100000x128_0_1 (broadcastInDim S1x128 ![1] bcast_S128_S1x128_1 b)))
    (broadcastInDim S100000x128 ![] bcast_S_S100000x128 (constant (F := F) S_ .f32 0x00000000#32))

/-- The second layer after its linear map `M` = h · W2: the same aggregation over 64 columns, plus the bias row. -/
def outputOf (src dst : (⟨S1700000, .i32⟩ : BufTy).Contents (Elt F)) (nrm : (⟨S1700000, .f32⟩ : BufTy).Contents (Elt F))
    (b : (⟨S64, .f32⟩ : BufTy).Contents (Elt F)) (M : (⟨S100000x64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant (F := F) S_ .f32 0x00000000#32))
      (broadcastInDim S1700000x1 ![0] bcast_S1700000_S1700000x1_0 dst)
      (mulf (Host.gather gather_S100000x64_S1700000x1_S1700000x64_1_0_n_n_0_1_164 M (wrapIdx src))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- The network: both layers over the edge lists and weights of one edge table, each linear map the plain product. -/
def gcn (x : (⟨S100000x128, .f32⟩ : BufTy).Contents (Elt F)) (ei : (⟨S2x1600000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S100000x64, .f32⟩ : BufTy).Contents (Elt F) :=
  outputOf (srcOf ei) (dstOf ei) (normOf (srcOf ei) (dstOf ei)) b2
    (Host.dotGeneral (DotDims.plain 100000 128 64) none
      (hiddenOf (srcOf ei) (dstOf ei) (normOf (srcOf ei) (dstOf ei)) b1
        (Host.dotGeneral (DotDims.plain 100000 128 128) none x W1))
      W2)

end Cert.Gcn

end
-- ==== Proof.KernelStretches.lean ====
/-
  What each stretch of host operations of the kernel's @main computes, from ANY contents of the buffers it starts from.

  @main is three stretches of host operations around its two matrix products:
    * the first builds the edge lists with the loops appended and the edges' weights,
    * the second turns the first product into the hidden layer (gather along the edges, scale, sum into the targets,
      add the bias, maximum with zero),
    * the third turns the second product into the output the same way, without the maximum.
  Each is read here as one function (Cert.Gcn) of the buffers the stretch reads, and every buffer a stretch does
  not write is stated to keep its contents.
-/
import proofs.«153329_j33595234189756_1_alg».proof.Proof.Gen.KernelIdeal.Launch
import proofs.«153329_j33595234189756_1_alg».proof.Proof.GcnSpec
import Idealize.ShloMosaic.Lib.StableHlo.Run

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo
open Cert.Gcn

variable {F : FTy → Type} [FloatOps F]

/-- What is left of a reading after the one-pass rewriting: the results of the operations around a change of shape,
    which that pass does not open. -/
macro "reads_rw" : tactic =>
  `(tactic| repeat (first
      | rw [reshape_result] | rw [unary_result] | rw [nullary_result] | rw [binary_result]
      | (rw [reshape_result_ne]; rotate_left; decide)
      | (rw [unary_result_ne]; rotate_left; decide)
      | (rw [nullary_result_ne]; rotate_left; decide)
      | (rw [binary_result_ne]; rotate_left; decide)))

/-- A buffer none of a stretch's operations writes keeps its contents. -/
macro "kept" : tactic =>
  `(tactic| (refine StableHlo.after_of_forall_not_mem _ _ (List.forall_iff_forall_mem.mp ?_)
             simp only [hostOps0, hostOps0_1, hostOps0_2, hostOps1, hostOps1_1, hostOps2, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## The first stretch: the edge lists and the weights -/

/-- The three lines of operations before the first product, run one after the other. -/
abbrev pre (W : Valuation τ sig (Elt F)) : Valuation τ sig (Elt F) :=
  StableHlo.after hostOps0_2 (StableHlo.after hostOps0_1 (StableHlo.after hostOps0 W))

set_option maxHeartbeats 8000000 in
/-- The sources with the loops appended. -/
theorem pre_src (W : Valuation τ sig (Elt F)) :
    pre W (Proc.devRef .tc main_v3) = srcOf (W (Proc.devRef .tc main_arg1)) := by
  after_results_simp
  reads_rw
  rfl

set_option maxHeartbeats 8000000 in
/-- The targets with the loops appended. -/
theorem pre_dst (W : Valuation τ sig (Elt F)) :
    pre W (Proc.devRef .tc main_v6) = dstOf (W (Proc.devRef .tc main_arg1)) := by
  after_results_simp
  reads_rw
  rfl

set_option maxHeartbeats 16000000 in
/-- The edges' weights. -/
theorem pre_norm (W : Valuation τ sig (Elt F)) :
    pre W (Proc.devRef .tc main_v29)
      = normOf (srcOf (W (Proc.devRef .tc main_arg1))) (dstOf (W (Proc.devRef .tc main_arg1))) := by
  after_results_simp
  reads_rw
  rfl

theorem pre_arg0 (W : Valuation τ sig (Elt F)) : pre W (Proc.devRef .tc main_arg0) = W (Proc.devRef .tc main_arg0) :=
  (by kept : StableHlo.after hostOps0_2 _ _ = _).trans ((by kept : StableHlo.after hostOps0_1 _ _ = _).trans (by kept))
theorem pre_arg2 (W : Valuation τ sig (Elt F)) : pre W (Proc.devRef .tc main_arg2) = W (Proc.devRef .tc main_arg2) :=
  (by kept : StableHlo.after hostOps0_2 _ _ = _).trans ((by kept : StableHlo.after hostOps0_1 _ _ = _).trans (by kept))
theorem pre_arg3 (W : Valuation τ sig (Elt F)) : pre W (Proc.devRef .tc main_arg3) = W (Proc.devRef .tc main_arg3) :=
  (by kept : StableHlo.after hostOps0_2 _ _ = _).trans ((by kept : StableHlo.after hostOps0_1 _ _ = _).trans (by kept))
theorem pre_arg4 (W : Valuation τ sig (Elt F)) : pre W (Proc.devRef .tc main_arg4) = W (Proc.devRef .tc main_arg4) :=
  (by kept : StableHlo.after hostOps0_2 _ _ = _).trans ((by kept : StableHlo.after hostOps0_1 _ _ = _).trans (by kept))
theorem pre_arg5 (W : Valuation τ sig (Elt F)) : pre W (Proc.devRef .tc main_arg5) = W (Proc.devRef .tc main_arg5) :=
  (by kept : StableHlo.after hostOps0_2 _ _ = _).trans ((by kept : StableHlo.after hostOps0_1 _ _ = _).trans (by kept))

/-! ## The second stretch: from the first product to the hidden layer -/

/-- The two lines of operations between the products. -/
abbrev mid (W : Valuation τ sig (Elt F)) : Valuation τ sig (Elt F) :=
  StableHlo.after hostOps1_1 (StableHlo.after hostOps1 W)

set_option maxHeartbeats 8000000 in
/-- The hidden layer, of the edge lists, the weights, the first bias and the first product as the stretch finds them. -/
theorem mid_hidden (W : Valuation τ sig (Elt F)) :
    mid W (Proc.devRef .tc main_v47)
      = hiddenOf (W (Proc.devRef .tc main_v3)) (W (Proc.devRef .tc main_v6)) (W (Proc.devRef .tc main_v29))
          (W (Proc.devRef .tc main_arg3)) (W (Proc.devRef .tc main_v30)) := by
  after_results_simp
  rfl

theorem mid_src (W : Valuation τ sig (Elt F)) : mid W (Proc.devRef .tc main_v3) = W (Proc.devRef .tc main_v3) :=
  (by kept : StableHlo.after hostOps1_1 _ _ = _).trans (by kept)
theorem mid_dst (W : Valuation τ sig (Elt F)) : mid W (Proc.devRef .tc main_v6) = W (Proc.devRef .tc main_v6) :=
  (by kept : StableHlo.after hostOps1_1 _ _ = _).trans (by kept)
theorem mid_norm (W : Valuation τ sig (Elt F)) : mid W (Proc.devRef .tc main_v29) = W (Proc.devRef .tc main_v29) :=
  (by kept : StableHlo.after hostOps1_1 _ _ = _).trans (by kept)
theorem mid_arg4 (W : Valuation τ sig (Elt F)) : mid W (Proc.devRef .tc main_arg4) = W (Proc.devRef .tc main_arg4) :=
  (by kept : StableHlo.after hostOps1_1 _ _ = _).trans (by kept)
theorem mid_arg5 (W : Valuation τ sig (Elt F)) : mid W (Proc.devRef .tc main_arg5) = W (Proc.devRef .tc main_arg5) :=
  (by kept : StableHlo.after hostOps1_1 _ _ = _).trans (by kept)

/-! ## The third stretch: from the second product to the output -/

set_option maxHeartbeats 8000000 in
/-- The output, of the edge lists, the weights, the second bias and the second product as the stretch finds them. -/
theorem tail_output (W : Valuation τ sig (Elt F)) :
    StableHlo.after hostOps2 W (Proc.devRef .tc main_v64)
      = outputOf (W (Proc.devRef .tc main_v3)) (W (Proc.devRef .tc main_v6)) (W (Proc.devRef .tc main_v29))
          (W (Proc.devRef .tc main_arg5)) (W (Proc.devRef .tc main_v48)) := by
  after_results_simp
  rfl

end Cert.KernelIdeal.Stretches

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.RegionProducts.lean ====
/-
  What each of the two pipelined matrix products leaves in its output array, as one plain product.

  A product h · W of a 100000-row table h by a small weight matrix W is computed ten blocks of 10000 rows at a time:
  at grid point t the body loads rows 10000·t … 10000·t + 9999 of h and the whole of W, converts both to a narrower
  float format (which changes nothing on the extended reals), multiplies them into a zero accumulator and stores the
  10000 × N result as the output's block t. Entry (p, q) of that block is Σ_k h (10000·t + p, k) · W (k, q), which is
  entry (10000·t + p, q) of the plain product of the whole arrays; the ten blocks tile the output, so the output
  array ends as the plain product h · W, whatever the region found in its buffers.
-/
import proofs.«153329_j33595234189756_1_alg».proof.Proof.Gen.KernelIdeal.Frame
import proofs.«153329_j33595234189756_1_alg».proof.Proof.LibPlainMatmul
import proofs.«153329_j33595234189756_1_alg».proof.Proof.LibHostReads
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Products

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- Both blocks are read and written from their first entry. -/
theorem origin : (![0, 0] : Fin 2 → Nat) = fun _ => 0 := funext fun a => by fin_cases a <;> rfl

variable (V : (c : Dev nD) → (b : Ref sig .tc) → Buf (Elt Ideal) ((c : Thread nD τ).loc b))

/-! ## The first product: x · W1 -/

/-- Entry (p, q) of what the body stores, from the blocks it loaded. -/
theorem stored0_apply (x0 : Vec Ideal S10000x128 .f32) (x1 : Vec Ideal S128x128 .f32) (p : Fin 10000) (q : Fin 128) :
    (k0_pay1 (F := Ideal) x0 x1 (ix2 p q) : EReal) = ∑ k : Fin 128, (x0 (ix2 p k) : EReal) * x1 (ix2 k q) := by
  unfold k0_pay1
  exact Cert.PlainMatmul.matmul_zero_apply 10000 128 128 none _ _ p q

/-- Where the windows' blocks lie at point t: the row blocks of the left operand and of the output move with t, the
    weight matrix is one block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The plain product of the whole arrays the region finds: what its output array is compared with. -/
abbrev whole0 (c : Dev nD) : FVec Ideal ⟨2, ![100000, 128]⟩ .f32 :=
  Host.dotGeneral (F := Ideal) (φ₁ := .f32) (φ₂ := .f32) (DotDims.plain 100000 128 128) none (V c main_arg0) (V c main_arg2)

/-- What point t writes back is block t of the plain product of the whole arrays. -/
theorem flushed0 (c : Dev nD) (t : Fin cfg0.N) :
    (dat0 (F := Ideal) V c).flushed 2 t = ((cfg0.win 2).blk t).view.read (Elt Ideal) (whole0 V c) := by
  show (cfg0.win 2).cut (grid0.coords t) ((dat0 (F := Ideal) V c).after 2 t) = _
  rw [after0_2]
  unfold out0_2
  rw [View.canon_unit_zero origin]
  simp only [View.ld_unit_zero (S := S10000x128) origin, View.ld_unit_zero (S := S128x128) origin]
  obtain ⟨e0, e1, e2, e3, e4, e5, ht⟩ := blocks0 t
  funext j
  obtain ⟨p, q, rfl⟩ : ∃ (p : Fin 10000) (q : Fin 128), j = ix2 p q := ⟨j 0, j 1, eq_ix2 j⟩
  have hr : 10000 * t.val + p.val < 100000 := by have := p.isLt; omega
  have eR : ((cfg0.win 2).blk t).view.emb (ix2 p q) = ix2 (⟨10000 * t.val + p.val, hr⟩ : Fin 100000) q := by
    funext a; apply Fin.ext
    match a with
    | ⟨0, _⟩ => show win0_2.index t (0 : Fin 2) * 10000 + 1 * p.val = 10000 * t.val + p.val; omega
    | ⟨1, _⟩ => show win0_2.index t (1 : Fin 2) * 128 + 1 * q.val = q.val; omega
  refine (stored0_apply (iblk0 V c 0 t) (iblk0 V c 1 t) p q).trans ?_
  show _ = whole0 V c (((cfg0.win 2).blk t).view.emb (ix2 p q))
  rw [eR]
  refine Eq.trans ?_ (Cert.LibHostReads.dotGeneral_plain_apply 100000 128 128 none (V c main_arg0) (V c main_arg2) ⟨_, hr⟩ q).symm
  refine Finset.sum_congr rfl fun k _ => ?_
  have h0 : iblk0 V c 0 t (ix2 p k) = V c main_arg0 (ix2 (⟨10000 * t.val + p.val, hr⟩ : Fin 100000) k) := by
    show V c (Pipeline.arrRef spec0 0) (((cfg0.win 0).blk t).view.emb (ix2 p k)) = _
    refine congrArg (V c main_arg0) ?_
    funext a; apply Fin.ext
    match a with
    | ⟨0, _⟩ => show win0_0.index t (0 : Fin 2) * 10000 + 1 * p.val = 10000 * t.val + p.val; omega
    | ⟨1, _⟩ => show win0_0.index t (1 : Fin 2) * 128 + 1 * k.val = k.val; omega
  have h1 : iblk0 V c 1 t (ix2 k q) = V c main_arg2 (ix2 k q) := by
    show V c (Pipeline.arrRef spec0 1) (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  exact congrArg₂ (· * ·) h0 h1

/-- An index of the output array is in point t's block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every block of rows is some point's. -/
theorem onto0 : ∀ q0 : Fin 10, ∃ t : Fin cfg0.N, win0_2.index t = ![q0.val, 0] :=
  (by decide +kernel : ∀ q0 : Fin 10, ∃ t : Fin grid0.N, win0_2.index t = ![q0.val, 0])

/-- The ten blocks tile the output: row r is in block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The first region's output array ends as the plain product of the two arrays it reads, whatever it was entered with. -/
theorem product0 (c : Dev nD) : (dat0 (F := Ideal) V c).arrAt 2 cfg0.N = whole0 V c :=
  (dat0 (F := Ideal) V c).arrAt_eq_of_cover 2 (whole0 V c) (fun t _ => flushed0 V c t) (cover0)

/-! ## The second product: h · W2 -/

/-- Entry (p, q) of what the body stores, from the blocks it loaded. -/
theorem stored1_apply (x0 : Vec Ideal S10000x128 .f32) (x1 : Vec Ideal S128x64 .f32) (p : Fin 10000) (q : Fin 64) :
    (k1_pay1 (F := Ideal) x0 x1 (ix2 p q) : EReal) = ∑ k : Fin 128, (x0 (ix2 p k) : EReal) * x1 (ix2 k q) := by
  unfold k1_pay1
  rw [shapeCast_self]
  exact Cert.PlainMatmul.matmul_zero_apply 10000 128 64 none _ _ p q

/-- Where the windows' blocks lie at point t: the row blocks of the left operand and of the output move with t, the
    weight matrix is one block. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The plain product of the whole arrays the region finds: what its output array is compared with. -/
abbrev whole1 (c : Dev nD) : FVec Ideal ⟨2, ![100000, 64]⟩ .f32 :=
  Host.dotGeneral (F := Ideal) (φ₁ := .f32) (φ₂ := .f32) (DotDims.plain 100000 128 64) none (V c main_v47) (V c main_arg4)

/-- What point t writes back is block t of the plain product of the whole arrays. -/
theorem flushed1 (c : Dev nD) (t : Fin cfg1.N) :
    (dat1 (F := Ideal) V c).flushed 2 t = ((cfg1.win 2).blk t).view.read (Elt Ideal) (whole1 V c) := by
  show (cfg1.win 2).cut (grid1.coords t) ((dat1 (F := Ideal) V c).after 2 t) = _
  rw [after1_2]
  unfold out1_2
  rw [View.canon_unit_zero origin]
  simp only [View.ld_unit_zero (S := S10000x128) origin, View.ld_unit_zero (S := S128x64) origin]
  obtain ⟨e0, e1, e2, e3, e4, e5, ht⟩ := blocks1 t
  funext j
  obtain ⟨p, q, rfl⟩ : ∃ (p : Fin 10000) (q : Fin 64), j = ix2 p q := ⟨j 0, j 1, eq_ix2 j⟩
  have hr : 10000 * t.val + p.val < 100000 := by have := p.isLt; omega
  have eR : ((cfg1.win 2).blk t).view.emb (ix2 p q) = ix2 (⟨10000 * t.val + p.val, hr⟩ : Fin 100000) q := by
    funext a; apply Fin.ext
    match a with
    | ⟨0, _⟩ => show win1_2.index t (0 : Fin 2) * 10000 + 1 * p.val = 10000 * t.val + p.val; omega
    | ⟨1, _⟩ => show win1_2.index t (1 : Fin 2) * 64 + 1 * q.val = q.val; omega
  refine (stored1_apply (iblk1 V c 0 t) (iblk1 V c 1 t) p q).trans ?_
  show _ = whole1 V c (((cfg1.win 2).blk t).view.emb (ix2 p q))
  rw [eR]
  refine Eq.trans ?_ (Cert.LibHostReads.dotGeneral_plain_apply 100000 128 64 none (V c main_v47) (V c main_arg4) ⟨_, hr⟩ q).symm
  refine Finset.sum_congr rfl fun k _ => ?_
  have h0 : iblk1 V c 0 t (ix2 p k) = V c main_v47 (ix2 (⟨10000 * t.val + p.val, hr⟩ : Fin 100000) k) := by
    show V c (Pipeline.arrRef spec1 0) (((cfg1.win 0).blk t).view.emb (ix2 p k)) = _
    refine congrArg (V c main_v47) ?_
    funext a; apply Fin.ext
    match a with
    | ⟨0, _⟩ => show win1_0.index t (0 : Fin 2) * 10000 + 1 * p.val = 10000 * t.val + p.val; omega
    | ⟨1, _⟩ => show win1_0.index t (1 : Fin 2) * 128 + 1 * k.val = k.val; omega
  have h1 : iblk1 V c 1 t (ix2 k q) = V c main_arg4 (ix2 k q) := by
    show V c (Pipeline.arrRef spec1 1) (((cfg1.win 1).blk t).view.emb (ix2 k q)) = _
    refine congrArg (V c main_arg4) ?_
    funext a; apply Fin.ext
    match a with
    | ⟨0, _⟩ => show win1_1.index t (0 : Fin 2) * 128 + 1 * k.val = k.val; omega
    | ⟨1, _⟩ => show win1_1.index t (1 : Fin 2) * 64 + 1 * q.val = q.val; omega
  exact congrArg₂ (· * ·) h0 h1

/-- An index of the output array is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- Every block of rows is some point's. -/
theorem onto1 : ∀ q0 : Fin 10, ∃ t : Fin cfg1.N, win1_2.index t = ![q0.val, 0] :=
  (by decide +kernel : ∀ q0 : Fin 10, ∃ t : Fin grid1.N, win1_2.index t = ![q0.val, 0])

/-- The ten blocks tile the output: row r is in block r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The second region's output array ends as the plain product of the two arrays it reads, whatever it was entered with. -/
theorem product1 (c : Dev nD) : (dat1 (F := Ideal) V c).arrAt 2 cfg1.N = whole1 V c :=
  (dat1 (F := Ideal) V c).arrAt_eq_of_cover 2 (whole1 V c) (fun t _ => flushed1 V c t) (cover1)

end Cert.KernelIdeal.Products

end
-- ==== Proof.KernelValue.lean ====
/-
  The kernel's result buffer after the run, as the network of Cert.Gcn of the six arguments (on the extended reals).

  The run's buffer contents are a fold through @main: three lines of host operations, the first pipelined product,
  two more lines, the second pipelined product, a last line. Read backwards from the result:
    * the last line gives the output layer of the second product, the edge lists, the weights and the second bias
      as the second region leaves them;
    * the second region leaves in its output array the plain product of the hidden layer and W2 (Products), and
      leaves every other buffer alone;
    * the middle lines give the hidden layer of the first product, the edge lists, the weights and the first bias;
    * the first region leaves the plain product of x and W1, and every other buffer alone;
    * the first lines build the edge lists and the weights from the edge table, and touch no argument.
-/
import proofs.«153329_j33595234189756_1_alg».proof.Proof.Gen.KernelIdeal.Frame
import proofs.«153329_j33595234189756_1_alg».proof.Proof.KernelStretches
import proofs.«153329_j33595234189756_1_alg».proof.Proof.RegionProducts

set_option maxRecDepth 16384

noncomputable section

namespace Cert.KernelIdeal.Value

open Cert.KernelIdeal Cert.KernelIdeal.Gen Idealize.ShloMosaic Idealize.ShloMosaic.TcCoe Idealize.SL.Sem
open Cert.Gcn Cert.KernelIdeal.Stretches Cert.KernelIdeal.Products

variable (m : (ℓ : Loc nD τ sig) → Buf (Elt Ideal) ℓ) (ρ : Dev nD → PrngReg)

/-- The argument arrays as the network takes them. -/
abbrev argX (c : Dev nD) := m ((c : Thread nD τ).loc main_arg0)
abbrev argE (c : Dev nD) := m ((c : Thread nD τ).loc main_arg1)
abbrev argW1 (c : Dev nD) := m ((c : Thread nD τ).loc main_arg2)
abbrev argB1 (c : Dev nD) := m ((c : Thread nD τ).loc main_arg3)
abbrev argW2 (c : Dev nD) := m ((c : Thread nD τ).loc main_arg4)
abbrev argB2 (c : Dev nD) := m ((c : Thread nD τ).loc main_arg5)

/-! ## When the first region is entered -/

theorem entry0_src (c : Dev nD) : W3 m ρ c (Proc.devRef .tc main_v3) = srcOf (argE m c) := pre_src (W0 m ρ c)
theorem entry0_dst (c : Dev nD) : W3 m ρ c (Proc.devRef .tc main_v6) = dstOf (argE m c) := pre_dst (W0 m ρ c)
theorem entry0_norm (c : Dev nD) :
    W3 m ρ c (Proc.devRef .tc main_v29) = normOf (srcOf (argE m c)) (dstOf (argE m c)) := pre_norm (W0 m ρ c)
theorem entry0_x (c : Dev nD) : W3 m ρ c (Proc.devRef .tc main_arg0) = argX m c := pre_arg0 (W0 m ρ c)
theorem entry0_w1 (c : Dev nD) : W3 m ρ c (Proc.devRef .tc main_arg2) = argW1 m c := pre_arg2 (W0 m ρ c)
theorem entry0_b1 (c : Dev nD) : W3 m ρ c (Proc.devRef .tc main_arg3) = argB1 m c := pre_arg3 (W0 m ρ c)
theorem entry0_w2 (c : Dev nD) : W3 m ρ c (Proc.devRef .tc main_arg4) = argW2 m c := pre_arg4 (W0 m ρ c)
theorem entry0_b2 (c : Dev nD) : W3 m ρ c (Proc.devRef .tc main_arg5) = argB2 m c := pre_arg5 (W0 m ρ c)

/-! ## When the first region is left -/

theorem exit0_src (c : Dev nD) : W4 m ρ c (Proc.devRef .tc main_v3) = srcOf (argE m c) :=
  (W4_of_ne m ρ c main_v3 (by decide)).trans (entry0_src m ρ c)
theorem exit0_dst (c : Dev nD) : W4 m ρ c (Proc.devRef .tc main_v6) = dstOf (argE m c) :=
  (W4_of_ne m ρ c main_v6 (by decide)).trans (entry0_dst m ρ c)
theorem exit0_norm (c : Dev nD) : W4 m ρ c (Proc.devRef .tc main_v29) = normOf (srcOf (argE m c)) (dstOf (argE m c)) :=
  (W4_of_ne m ρ c main_v29 (by decide)).trans (entry0_norm m ρ c)
theorem exit0_b1 (c : Dev nD) : W4 m ρ c (Proc.devRef .tc main_arg3) = argB1 m c :=
  (W4_of_ne m ρ c main_arg3 (by decide)).trans (entry0_b1 m ρ c)
theorem exit0_w2 (c : Dev nD) : W4 m ρ c (Proc.devRef .tc main_arg4) = argW2 m c :=
  (W4_of_ne m ρ c main_arg4 (by decide)).trans (entry0_w2 m ρ c)
theorem exit0_b2 (c : Dev nD) : W4 m ρ c (Proc.devRef .tc main_arg5) = argB2 m c :=
  (W4_of_ne m ρ c main_arg5 (by decide)).trans (entry0_b2 m ρ c)

/-- The first product's array: x · W1. -/
theorem exit0_product (c : Dev nD) :
    W4 m ρ c (Proc.devRef .tc main_v30)
      = Host.dotGeneral (F := Ideal) (φ₁ := .f32) (φ₂ := .f32) (DotDims.plain 100000 128 128) none (argX m c) (argW1 m c) := by
  refine ((W4_arr m ρ c 2).trans (product0 (V3 m ρ) c)).trans ?_
  show Host.dotGeneral (F := Ideal) (φ₁ := .f32) (φ₂ := .f32) (DotDims.plain 100000 128 128) none
      (W3 m ρ c (Proc.devRef .tc main_arg0)) (W3 m ρ c (Proc.devRef .tc main_arg2)) = _
  rw [entry0_x, entry0_w1]

/-! ## When the second region is entered -/

/-- The hidden layer. -/
def hidden (c : Dev nD) : (⟨S100000x128, .f32⟩ : BufTy).Contents (Elt Ideal) :=
  hiddenOf (srcOf (argE m c)) (dstOf (argE m c)) (normOf (srcOf (argE m c)) (dstOf (argE m c))) (argB1 m c)
    (Host.dotGeneral (F := Ideal) (φ₁ := .f32) (φ₂ := .f32) (DotDims.plain 100000 128 128) none (argX m c) (argW1 m c))

theorem entry1_hidden (c : Dev nD) : W6 m ρ c (Proc.devRef .tc main_v47) = hidden m c := by
  refine (mid_hidden (W4 m ρ c)).trans ?_
  rw [exit0_src, exit0_dst, exit0_norm, exit0_b1, exit0_product]
  rfl
theorem entry1_src (c : Dev nD) : W6 m ρ c (Proc.devRef .tc main_v3) = srcOf (argE m c) :=
  (mid_src (W4 m ρ c)).trans (exit0_src m ρ c)
theorem entry1_dst (c : Dev nD) : W6 m ρ c (Proc.devRef .tc main_v6) = dstOf (argE m c) :=
  (mid_dst (W4 m ρ c)).trans (exit0_dst m ρ c)
theorem entry1_norm (c : Dev nD) : W6 m ρ c (Proc.devRef .tc main_v29) = normOf (srcOf (argE m c)) (dstOf (argE m c)) :=
  (mid_norm (W4 m ρ c)).trans (exit0_norm m ρ c)
theorem entry1_w2 (c : Dev nD) : W6 m ρ c (Proc.devRef .tc main_arg4) = argW2 m c :=
  (mid_arg4 (W4 m ρ c)).trans (exit0_w2 m ρ c)
theorem entry1_b2 (c : Dev nD) : W6 m ρ c (Proc.devRef .tc main_arg5) = argB2 m c :=
  (mid_arg5 (W4 m ρ c)).trans (exit0_b2 m ρ c)

/-! ## When the second region is left -/

theorem exit1_src (c : Dev nD) : W7 m ρ c (Proc.devRef .tc main_v3) = srcOf (argE m c) :=
  (W7_of_ne m ρ c main_v3 (by decide)).trans (entry1_src m ρ c)
theorem exit1_dst (c : Dev nD) : W7 m ρ c (Proc.devRef .tc main_v6) = dstOf (argE m c) :=
  (W7_of_ne m ρ c main_v6 (by decide)).trans (entry1_dst m ρ c)
theorem exit1_norm (c : Dev nD) : W7 m ρ c (Proc.devRef .tc main_v29) = normOf (srcOf (argE m c)) (dstOf (argE m c)) :=
  (W7_of_ne m ρ c main_v29 (by decide)).trans (entry1_norm m ρ c)
theorem exit1_b2 (c : Dev nD) : W7 m ρ c (Proc.devRef .tc main_arg5) = argB2 m c :=
  (W7_of_ne m ρ c main_arg5 (by decide)).trans (entry1_b2 m ρ c)

/-- The second product's array: hidden · W2. -/
theorem exit1_product (c : Dev nD) :
    W7 m ρ c (Proc.devRef .tc main_v48)
      = Host.dotGeneral (F := Ideal) (φ₁ := .f32) (φ₂ := .f32) (DotDims.plain 100000 128 64) none (hidden m c) (argW2 m c) := by
  refine ((W7_arr m ρ c 2).trans (product1 (V6 m ρ) c)).trans ?_
  show Host.dotGeneral (F := Ideal) (φ₁ := .f32) (φ₂ := .f32) (DotDims.plain 100000 128 64) none
      (W6 m ρ c (Proc.devRef .tc main_v47)) (W6 m ρ c (Proc.devRef .tc main_arg4)) = _
  rw [entry1_hidden, entry1_w2]

/-! ## The result -/

/-- The result buffer at the last boundary is the network of the six arguments. -/
theorem result (c : Dev nD) :
    W8 m ρ c (Proc.devRef .tc main_v64) = gcn (argX m c) (argE m c) (argW1 m c) (argB1 m c) (argW2 m c) (argB2 m c) := by
  refine (tail_output (W7 m ρ c)).trans ?_
  rw [exit1_src, exit1_dst, exit1_norm, exit1_b2, exit1_product]
  rfl

end Cert.KernelIdeal.Value

end
-- ==== Proof.RefStretches.lean ====
/-
  The reference's @main read stretch by stretch, and its result as the network of Cert.Gcn.

  The reference's 83 host operations are the kernel's host operations with a plain matrix product in the place of
  each pipelined one: 40 operations that build the edge lists and the weights, the product x · W1, 22 operations to
  the hidden layer, the product h · W2, 19 operations to the output (the five pieces the run's module names). Each
  stretch, read from ANY contents of the buffers it starts from, is the same function (Cert.Gcn) as the kernel's
  stretch; run one after the other from the launch contents they give `gcn` of the six arguments.
-/
import proofs.«153329_j33595234189756_1_alg».proof.Proof.RefRunP
import proofs.«153329_j33595234189756_1_alg».proof.Proof.GcnSpec
import Idealize.ShloMosaic.Lib.StableHlo.Run

set_option maxRecDepth 16384

noncomputable section

namespace Cert.ReferenceIdeal.Stretches

open Cert.ReferenceIdeal Cert.ReferenceIdeal.Gen Cert.ReferenceIdeal.RunP Idealize.ShloMosaic Idealize.ShloMosaic.TcCoe Idealize.SL.Sem Idealize.ShloMosaic.StableHlo
open Cert.Gcn

variable {F : FTy → Type} [FloatOps F]

/-- What is left of a reading after the one-pass rewriting: the results of the operations around a change of shape,
    which that pass does not open. -/
macro "reads_rw" : tactic =>
  `(tactic| repeat (first
      | rw [reshape_result] | rw [unary_result] | rw [nullary_result] | rw [binary_result]
      | (rw [reshape_result_ne]; rotate_left; decide)
      | (rw [unary_result_ne]; rotate_left; decide)
      | (rw [nullary_result_ne]; rotate_left; decide)
      | (rw [binary_result_ne]; rotate_left; decide)))

/-- Running two lines one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih (op.result W)

/-! ## The stretches, from any contents -/

set_option maxHeartbeats 8000000 in
theorem pre_src (W : Valuation τ sig (Elt F)) :
    StableHlo.after preOps W (Proc.devRef .tc main_v3) = srcOf (W (Proc.devRef .tc main_arg1)) := by
  after_results_simp
  reads_rw
  rfl

set_option maxHeartbeats 8000000 in
theorem pre_dst (W : Valuation τ sig (Elt F)) :
    StableHlo.after preOps W (Proc.devRef .tc main_v6) = dstOf (W (Proc.devRef .tc main_arg1)) := by
  after_results_simp
  reads_rw
  rfl

set_option maxHeartbeats 16000000 in
theorem pre_norm (W : Valuation τ sig (Elt F)) :
    StableHlo.after preOps W (Proc.devRef .tc main_v29)
      = normOf (srcOf (W (Proc.devRef .tc main_arg1))) (dstOf (W (Proc.devRef .tc main_arg1))) := by
  after_results_simp
  reads_rw
  rfl

set_option maxHeartbeats 8000000 in
theorem pre_arg (W : Valuation τ sig (Elt F)) :
    StableHlo.after preOps W (Proc.devRef .tc main_arg0) = W (Proc.devRef .tc main_arg0)
    ∧ StableHlo.after preOps W (Proc.devRef .tc main_arg2) = W (Proc.devRef .tc main_arg2)
    ∧ StableHlo.after preOps W (Proc.devRef .tc main_arg3) = W (Proc.devRef .tc main_arg3)
    ∧ StableHlo.after preOps W (Proc.devRef .tc main_arg4) = W (Proc.devRef .tc main_arg4)
    ∧ StableHlo.after preOps W (Proc.devRef .tc main_arg5) = W (Proc.devRef .tc main_arg5) := by
  refine ⟨?_, ?_, ?_, ?_, ?_⟩ <;> after_results_simp

set_option maxHeartbeats 8000000 in
theorem mid_hidden (W : Valuation τ sig (Elt F)) :
    StableHlo.after midOps W (Proc.devRef .tc main_v47)
      = hiddenOf (W (Proc.devRef .tc main_v3)) (W (Proc.devRef .tc main_v6)) (W (Proc.devRef .tc main_v29))
          (W (Proc.devRef .tc main_arg3)) (W (Proc.devRef .tc main_v30)) := by
  after_results_simp
  rfl

set_option maxHeartbeats 8000000 in
theorem mid_kept (W : Valuation τ sig (Elt F)) :
    StableHlo.after midOps W (Proc.devRef .tc main_v3) = W (Proc.devRef .tc main_v3)
    ∧ StableHlo.after midOps W (Proc.devRef .tc main_v6) = W (Proc.devRef .tc main_v6)
    ∧ StableHlo.after midOps W (Proc.devRef .tc main_v29) = W (Proc.devRef .tc main_v29)
    ∧ StableHlo.after midOps W (Proc.devRef .tc main_arg4) = W (Proc.devRef .tc main_arg4)
    ∧ StableHlo.after midOps W (Proc.devRef .tc main_arg5) = W (Proc.devRef .tc main_arg5) := by
  refine ⟨?_, ?_, ?_, ?_, ?_⟩ <;> after_results_simp

set_option maxHeartbeats 8000000 in
theorem tail_output (W : Valuation τ sig (Elt F)) :
    StableHlo.after tailOps W (Proc.devRef .tc main_v64)
      = outputOf (W (Proc.devRef .tc main_v3)) (W (Proc.devRef .tc main_v6)) (W (Proc.devRef .tc main_v29))
          (W (Proc.devRef .tc main_arg5)) (W (Proc.devRef .tc main_v48)) := by
  after_results_simp
  rfl

/-! ## The two products: what they write and what they keep -/

theorem dot1_value (W : Valuation τ sig (Elt F)) :
    (dot1 (F := F)).result W (Proc.devRef .tc main_v30)
      = Host.dotGeneral dot_S100000x128_S128x128_S100000x128_1_0_0_1_n_n none (W (Proc.devRef .tc main_arg0)) (W (Proc.devRef .tc main_arg2)) := by
  rw [binary_result]

theorem dot1_kept (W : Valuation τ sig (Elt F)) {r : Ref sig .tc} (h : r ≠ main_v30) :
    (dot1 (F := F)).result W (Proc.devRef .tc r) = W (Proc.devRef .tc r) := by
  rw [binary_result_ne]; exact h

theorem dot2_value (W : Valuation τ sig (Elt F)) :
    (dot2 (F := F)).result W (Proc.devRef .tc main_v48)
      = Host.dotGeneral dot_S100000x128_S128x64_S100000x64_1_0_0_1_n_n none (W (Proc.devRef .tc main_v47)) (W (Proc.devRef .tc main_arg4)) := by
  rw [binary_result]

theorem dot2_kept (W : Valuation τ sig (Elt F)) {r : Ref sig .tc} (h : r ≠ main_v48) :
    (dot2 (F := F)).result W (Proc.devRef .tc r) = W (Proc.devRef .tc r) := by
  rw [binary_result_ne]; exact h

/-- The reference's two records of a plain product are the library's. -/
theorem dims1 : dot_S100000x128_S128x128_S100000x128_1_0_0_1_n_n = DotDims.plain 100000 128 128 := rfl
theorem dims2 : dot_S100000x128_S128x64_S100000x64_1_0_0_1_n_n = DotDims.plain 100000 128 64 := rfl

/-! ## The whole run -/

/-- The reference's result, from any launch contents: the network of the six arguments. -/
theorem value (W : Valuation τ sig (Elt F)) :
    StableHlo.after (RunP.ops (F := F)) W (Proc.devRef .tc main_v64)
      = gcn (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [ops_pieces, after_append, after_cons, after_append, after_cons, tail_output]
  obtain ⟨a0, a2, a3, a4, a5⟩ := pre_arg W
  -- the contents after the first product, and after the second stretch
  have k1 : ∀ {r : Ref sig .tc}, r ≠ main_v30 →
      (dot1 (F := F)).result (StableHlo.after preOps W) (Proc.devRef .tc r) = StableHlo.after preOps W (Proc.devRef .tc r) :=
    fun h => dot1_kept _ h
  obtain ⟨m3, m6, m29, m4, m5⟩ := mid_kept ((dot1 (F := F)).result (StableHlo.after preOps W))
  have k2 : ∀ {r : Ref sig .tc}, r ≠ main_v48 →
      (dot2 (F := F)).result (StableHlo.after midOps ((dot1 (F := F)).result (StableHlo.after preOps W))) (Proc.devRef .tc r)
        = StableHlo.after midOps ((dot1 (F := F)).result (StableHlo.after preOps W)) (Proc.devRef .tc r) :=
    fun h => dot2_kept _ h
  rw [k2 (r := main_v3) (by decide), k2 (r := main_v6) (by decide), k2 (r := main_v29) (by decide),
    k2 (r := main_arg5) (by decide), dot2_value, m3, m6, m29, m4, m5, mid_hidden,
    k1 (r := main_v3) (by decide), k1 (r := main_v6) (by decide), k1 (r := main_v29) (by decide),
    k1 (r := main_arg3) (by decide), k1 (r := main_arg4) (by decide), k1 (r := main_arg5) (by decide), dot1_value,
    pre_src, pre_dst, pre_norm, a0, a2, a3, a4, a5, dims1, dims2]
  rfl

end Cert.ReferenceIdeal.Stretches

end
-- ==== Proof.lean ====
/-
  A two-layer graph convolution whose two linear maps run as pipelined matrix products, against the same network
  with plain matrix products: equal results on the extended reals.

  Both programs build, from the 2 × 1600000 edge table, the edge lists with a loop appended at every node, the
  in-degrees, deg^(-1/2) (0 at degree 0) and the weight of every edge; both compute
      out = A (max (A (x · W1) + b1, 0) · W2) + b2,
  where A gathers the rows of a node table along the edges by source, scales each by its edge's weight and sums it
  into the edge's target. The host operations that do this are the same lines in both programs (Cert.Gcn names them
  as functions; KernelStretches and RefStretches read each program's lines as those functions). The programs differ
  only in the two products. The reference takes each as one plain product Σ_k h (r, k) · W (k, q). The kernel cuts
  the 100000 rows into ten blocks of 10000, converts the block and the weights to a narrower float format and
  multiplies them into a zero accumulator, block by block; on the extended reals the conversion is the identity, the
  block's entry (p, q) is Σ_k h (10000·t + p, k) · W (k, q), and the ten blocks tile the output, so the array the
  region leaves IS the plain product (RegionProducts). The same sum on both sides: no law of the extended reals is
  used, and the precondition (finite inputs) is never opened.

  The frames of the two kernel programs are the generated ones; the reference's frame is its run with the result
  dropped; the ideal pass rewrote nothing, so `preserves` asks nothing.
-/
import proofs.«153329_j33595234189756_1_alg».proof.Defs
import proofs.«153329_j33595234189756_1_alg».proof.Proof.Gen.Kernel
import proofs.«153329_j33595234189756_1_alg».proof.Proof.Gen.Kernel.Skeleton
import proofs.«153329_j33595234189756_1_alg».proof.Proof.Gen.Kernel.Launch
import proofs.«153329_j33595234189756_1_alg».proof.Proof.Gen.Kernel.Points
import proofs.«153329_j33595234189756_1_alg».proof.Proof.Gen.Kernel.Frame
import proofs.«153329_j33595234189756_1_alg».proof.Proof.Gen.KernelIdeal
import proofs.«153329_j33595234189756_1_alg».proof.Proof.Gen.KernelIdeal.Skeleton
import proofs.«153329_j33595234189756_1_alg».proof.Proof.Gen.KernelIdeal.Launch
import proofs.«153329_j33595234189756_1_alg».proof.Proof.Gen.KernelIdeal.Points
import proofs.«153329_j33595234189756_1_alg».proof.Proof.Gen.KernelIdeal.Frame
import proofs.«153329_j33595234189756_1_alg».proof.Proof.Gen.ReferenceIdeal
import proofs.«153329_j33595234189756_1_alg».proof.Proof.Gen.Pre_finite_inputs
import proofs.«153329_j33595234189756_1_alg».proof.Proof.KernelRunP
import proofs.«153329_j33595234189756_1_alg».proof.Proof.KernelValue
import proofs.«153329_j33595234189756_1_alg».proof.Proof.RefStretches
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories that agree on the six arguments both programs end with the network `gcn` of those arguments in
    their result: the kernel by its fold read backwards through the two regions, the reference by its lines read in
    order. -/
theorem algebraic : Cert.algebraic_KernelIdeal_ReferenceIdeal := by
  intro m ρ m' ρ' _ hagree
  refine ⟨fun c => Cert.Gcn.gcn (F := Ideal) (Cert.KernelIdeal.Value.argX m c) (Cert.KernelIdeal.Value.argE m c)
      (Cert.KernelIdeal.Value.argW1 m c) (Cert.KernelIdeal.Value.argB1 m c) (Cert.KernelIdeal.Value.argW2 m c)
      (Cert.KernelIdeal.Value.argB2 m c), ?_, ?_⟩
  · exact (θ_run Cert.KernelIdeal.defs _ _).mono
      (fun r h c => ⟨(h c).1.trans (Cert.KernelIdeal.Value.result m ρ c), (h c).2⟩)
      (Cert.KernelIdeal.RunP.run_named (F := Ideal) m ρ)
  · refine (θ_run Cert.ReferenceIdeal.defs _ _).mono (fun r h c => ⟨(h c).1.trans ?_, (h c).2⟩)
      (Cert.ReferenceIdeal.RunP.run (F := Ideal) m' ρ')
    refine (Cert.ReferenceIdeal.Stretches.value (F := Ideal) (StableHlo.launchContents m' c)).trans ?_
    obtain ⟨h0, h1, h2, h3, h4, h5⟩ := hagree c
    exact congr (congr (congr (congr (congr (congrArg (Cert.Gcn.gcn (F := Ideal)) h0) h1) h2) h3) h4) h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
